-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x1 : Shape := ⟨2, ![1048576, 1]⟩
abbrev S1048576x49 : Shape := ⟨2, ![1048576, 49]⟩
abbrev S32x98 : Shape := ⟨2, ![32, 98]⟩
abbrev S32 : Shape := ⟨1, ![32]⟩
abbrev S32x64 : Shape := ⟨2, ![32, 64]⟩
abbrev S32x32 : Shape := ⟨2, ![32, 32]⟩
abbrev S1x64 : Shape := ⟨2, ![1, 64]⟩
abbrev S1 : Shape := ⟨1, ![1]⟩
abbrev S_ : Shape := ⟨0, ![]⟩

class Facts : Prop where
  bcast_S_S1048576x1 : S_.BroadcastsInDim S1048576x1 (![] : Fin 0 → Fin S1048576x1.rank)
  reducesTo_S1048576x1_S_d0_1 : S1048576x1.ReducesTo [0, 1] S_
  h_S_ : 0 < S_.numel
  bcast_S_S1048576x49 : S_.BroadcastsInDim S1048576x49 (![] : Fin 0 → Fin S1048576x49.rank)
  reducesTo_S1048576x49_S_d0_1 : S1048576x49.ReducesTo [0, 1] S_
  bcast_S_S32x98 : S_.BroadcastsInDim S32x98 (![] : Fin 0 → Fin S32x98.rank)
  reducesTo_S32x98_S_d0_1 : S32x98.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S32x32 : S_.BroadcastsInDim S32x32 (![] : Fin 0 → Fin S32x32.rank)
  reducesTo_S32x32_S_d0_1 : S32x32.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x64 .f32) (main_arg12 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x64 .f32) (main_arg8 : FVec F S32 .f32) (main_arg9 : FVec F S32x32 .f32) (main_arg10 : FVec F S32 .f32) (main_arg11 : FVec F S1x64 .f32) (main_arg12 : FVec F S1 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S32 .f32) (main_arg5 : FVec F S32x98 .f32) (main_arg6 : FVec F S32 .f32) (main_arg7 : FVec F S32x64 .f32) (main_arg8 : FVec F S32 .f32) (main_arg9 : FVec F S32x32 .f32) (main_arg10 : FVec F S32 .f32) (main_arg11 : FVec F S1x64 .f32) (main_arg12 : FVec F S1 .f32) (main_v13 : IVec S_ 1) (main_v16 : IVec S32x98 1) : IVec S_ 1 :=
  let main_c_5 : IVec S_ 1 := constantI S_ 1 1#1
  let main_v17 : IVec S_ 1 := (fun x v => Host.reduce IntOp.andi x v reducesTo_S32x98_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x98 .f32 := Host.absf main_arg5
  let main_cst_8 : FVec F S_ .f32 := constant S_ .f32 0x7F800000#32
  let main_v25 : FVec F S32x98 .f32 := broadcastInDim S32x98 ![] bcast_S_S32x98 main_cst_8
  let main_v26 : IVec S32x98 1 := cmpf .olt main_v24 main_v25
  let main_c_9 : IVec S_ 1 := constantI S_ 1 1#1
  let main_v27 : IVec S_ 1 := (fun x v => Host.reduce IntOp.andi x v reducesTo_S32x98_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1048576x1 .f32) (main_arg1 : FVec F S1048576x49 .f32) (main_arg2 : FVec F S1048576x49 .f32) (main_arg3 : FVec F S32x98 .f32) (main_arg4 : FVec F S32 .f32) (main_arg5 : FVec F S32x98 .f32) (main_arg6 : FVec F S32 .f32) (main_arg7 : FVec F S32x64 .f32) (main_arg8 : FVec F S32 .f32) (main_arg9 : FVec F S32x32 .f32) (main_arg10 : FVec F S32 .f32) (main_arg11 : FVec F S1x64 .f32) (main_arg12 : FVec F S1 .f32) : IVec S_ 1 :=
  let main_v0 : FVec F S1048576x1 .f32 := Host.absf main_arg0
  let main_cst : FVec F S_ .f32 := constant S_ .f32 0x7F800000#32
  let main_v1 : FVec F S1048576x1 .f32 := broadcastInDim S1048576x1 ![] bcast_S_S1048576x1 main_cst
  let main_v2 : IVec S1048576x1 1 := cmpf .olt main_v0 main_v1
  let main_c : IVec S_ 1 := constantI S_ 1 1#1
  let main_v3 : IVec S_ 1 := (fun x v => Host.reduce IntOp.andi x v reducesTo_S1048576x1_S_d0_1 h_S_) main_v2 main_c
  let main_v4 : FVec F S1048576x49 .f32 := Host.absf main_arg1
  let main_cst_0 : FVec F S_ .f32 := constant S_ .f32 0x7F800000#32
  let main_v5 : FVec F S1048576x49 .f32 := broadcastInDim S1048576x49 ![] bcast_S_S1048576x49 main_cst_0
  let main_v6 : IVec S1048576x49 1 := cmpf .olt main_v4 main_v5
  let main_c_1 : IVec S_ 1 := constantI S_ 1 1#1
  let main_v7 : IVec S_ 1 := (fun x v => Host.reduce IntOp.andi x v reducesTo_S1048576x49_S_d0_1 h_S_) main_v6 main_c_1
  let main_v8 : IVec S_ 1 := andi main_v3 main_v7
  let main_v9 : FVec F S1048576x49 .f32 := Host.absf main_arg2
  let main_cst_2 : FVec F S_ .f32 := constant S_ .f32 0x7F800000#32
  let main_v10 : FVec F S1048576x49 .f32 := broadcastInDim S1048576x49 ![] bcast_S_S1048576x49 main_cst_2
  let main_v11 : IVec S1048576x49 1 := cmpf .olt main_v9 main_v10
  let main_c_3 : IVec S_ 1 := constantI S_ 1 1#1
  let main_v12 : IVec S_ 1 := (fun x v => Host.reduce IntOp.andi x v reducesTo_S1048576x49_S_d0_1 h_S_) main_v11 main_c_3
  let main_v13 : IVec S_ 1 := andi main_v8 main_v12
  let main_v14 : FVec F S32x98 .f32 := Host.absf main_arg3
  let main_cst_4 : FVec F S_ .f32 := constant S_ .f32 0x7F800000#32
  let main_v15 : FVec F S32x98 .f32 := broadcastInDim S32x98 ![] bcast_S_S32x98 main_cst_4
  let main_v16 : IVec S32x98 1 := cmpf .olt main_v14 main_v15
  fn_part1 (F := F) main_arg4 main_arg5 main_arg6 main_arg7 main_arg8 main_arg9 main_arg10 main_arg11 main_arg12 main_v13 main_v16
-- ==== Kernel.lean ====
abbrev S1048576x1 : Shape := ⟨2, ![1048576, 1]⟩
abbrev S1048576x49 : Shape := ⟨2, ![1048576, 49]⟩
abbrev S32x98 : Shape := ⟨2, ![32, 98]⟩
abbrev S32 : Shape := ⟨1, ![32]⟩
abbrev S32x64 : Shape := ⟨2, ![32, 64]⟩
abbrev S32x32 : Shape := ⟨2, ![32, 32]⟩
abbrev S1x64 : Shape := ⟨2, ![1, 64]⟩
abbrev S1 : Shape := ⟨1, ![1]⟩
abbrev S98x32 : Shape := ⟨2, ![98, 32]⟩
abbrev S64x32 : Shape := ⟨2, ![64, 32]⟩
abbrev S64x1 : Shape := ⟨2, ![64, 1]⟩
abbrev S1x32 : Shape := ⟨2, ![1, 32]⟩
abbrev S1x1 : Shape := ⟨2, ![1, 1]⟩
abbrev S4096x1 : Shape := ⟨2, ![4096, 1]⟩
abbrev S4096x49 : Shape := ⟨2, ![4096, 49]⟩
abbrev S4096x98 : Shape := ⟨2, ![4096, 98]⟩
abbrev S4096x32 : Shape := ⟨2, ![4096, 32]⟩
abbrev S4096x64 : Shape := ⟨2, ![4096, 64]⟩

abbrev nBuf : Space → Nat
  | .hbm => 29
  | .vmem => 18
  | .smem => 0
  | _ => 0

abbrev bufTy : (tb : Table) → Fin (tcTables nBuf tb) → BufTy
  | .hbm, ⟨0, _⟩ => ⟨S1048576x1, .f32⟩
  | .hbm, ⟨1, _⟩ => ⟨S1048576x49, .f32⟩
  | .hbm, ⟨2, _⟩ => ⟨S1048576x49, .f32⟩
  | .hbm, ⟨3, _⟩ => ⟨S32x98, .f32⟩
  | .hbm, ⟨4, _⟩ => ⟨S32, .f32⟩
  | .hbm, ⟨5, _⟩ => ⟨S32x98, .f32⟩
  | .hbm, ⟨6, _⟩ => ⟨S32, .f32⟩
  | .hbm, ⟨7, _⟩ => ⟨S32x64, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x64, .f32⟩
  | .hbm, ⟨12, _⟩ => ⟨S1, .f32⟩
  | .hbm, ⟨13, _⟩ => ⟨S98x32, .f32⟩
  | .hbm, ⟨14, _⟩ => ⟨S98x32, .bf16⟩
  | .hbm, ⟨15, _⟩ => ⟨S98x32, .f32⟩
  | .hbm, ⟨16, _⟩ => ⟨S98x32, .bf16⟩
  | .hbm, ⟨17, _⟩ => ⟨S64x32, .f32⟩
  | .hbm, ⟨18, _⟩ => ⟨S64x32, .bf16⟩
  | .hbm, ⟨19, _⟩ => ⟨S32x32, .f32⟩
  | .hbm, ⟨20, _⟩ => ⟨S32x32, .bf16⟩
  | .hbm, ⟨21, _⟩ => ⟨S64x1, .f32⟩
  | .hbm, ⟨22, _⟩ => ⟨S64x1, .bf16⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x1, .f32⟩
  | .hbm, ⟨28, _⟩ => ⟨S1048576x1, .f32⟩
  | .local _ .vmem, ⟨0, _⟩ => ⟨S4096x1, .f32⟩
  | .local _ .vmem, ⟨1, _⟩ => ⟨S4096x1, .f32⟩
  | .local _ .vmem, ⟨2, _⟩ => ⟨S4096x49, .f32⟩
  | .local _ .vmem, ⟨3, _⟩ => ⟨S4096x49, .f32⟩
  | .local _ .vmem, ⟨4, _⟩ => ⟨S4096x49, .f32⟩
  | .local _ .vmem, ⟨5, _⟩ => ⟨S4096x49, .f32⟩
  | .local _ .vmem, ⟨6, _⟩ => ⟨S98x32, .bf16⟩
  | .local _ .vmem, ⟨7, _⟩ => ⟨S1x32, .f32⟩
  | .local _ .vmem, ⟨8, _⟩ => ⟨S98x32, .bf16⟩
  | .local _ .vmem, ⟨9, _⟩ => ⟨S1x32, .f32⟩
  | .local _ .vmem, ⟨10, _⟩ => ⟨S64x32, .bf16⟩
  | .local _ .vmem, ⟨11, _⟩ => ⟨S1x32, .f32⟩
  | .local _ .vmem, ⟨12, _⟩ => ⟨S32x32, .bf16⟩
  | .local _ .vmem, ⟨13, _⟩ => ⟨S1x32, .f32⟩
  | .local _ .vmem, ⟨14, _⟩ => ⟨S64x1, .bf16⟩
  | .local _ .vmem, ⟨15, _⟩ => ⟨S1x1, .f32⟩
  | .local _ .vmem, ⟨16, _⟩ => ⟨S4096x1, .f32⟩
  | .local _ .vmem, ⟨17, _⟩ => ⟨S4096x1, .f32⟩
  | _, _ => ⟨S1048576x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S98x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S98x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S32x98_S98x32_1_0 : S32x98.Transposes [1, 0] S98x32
  bitsLt_bf16_f32 : FTy.bits .bf16 < FTy.bits .f32
  transposes_S32x64_S64x32_1_0 : S32x64.Transposes [1, 0] S64x32
  transposes_S32x32_S32x32_1_0 : S32x32.Transposes [1, 0] S32x32
  transposes_S1x64_S64x1_1_0 : S1x64.Transposes [1, 0] S64x1
  shapeCasts_S32_S1x32 : S32.ShapeCasts S1x32
  shapeCasts_S1_S1x1 : S1.ShapeCasts S1x1
  inb_S4096x49_S4096x49_0_0 : ∀ a, (![0, 0] : Fin 2 → Nat) a + S4096x49.size a ≤ S4096x49.size a
  h_S4096x49 : 0 < S4096x49.numel
  inb_S4096x1_S4096x1_0_0 : ∀ a, (![0, 0] : Fin 2 → Nat) a + S4096x1.size a ≤ S4096x1.size a
  h_S4096x1 : 0 < S4096x1.numel
  concatenates_S4096x49_S4096x49_S4096x98_d1 : Shape.Concatenates [S4096x49, S4096x49] S4096x98 1
  inb_S98x32_S98x32_0_0 : ∀ a, (![0, 0] : Fin 2 → Nat) a + S98x32.size a ≤ S98x32.size a
  h_S98x32 : 0 < S98x32.numel
  shapeCasts_S98x32_S98x32 : S98x32.ShapeCasts S98x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  concatenates_S4096x32_S4096x32_S4096x64_d1 : Shape.Concatenates [S4096x32, S4096x32] S4096x64 1
  broadcasts_S4096x1_S4096x64 : S4096x1.Broadcasts S4096x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  dot_S4096x98_S98x32_S4096x32_1_0_0_1_n_n_wf : DotDims.WF S4096x98 S98x32 S4096x32 [1] [0] [0] [1] [] []
  dot_S4096x64_S64x32_S4096x32_1_0_0_1_n_n_wf : DotDims.WF S4096x64 S64x32 S4096x32 [1] [0] [0] [1] [] []
  dot_S4096x32_S32x32_S4096x32_1_0_0_1_n_n_wf : DotDims.WF S4096x32 S32x32 S4096x32 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S1048576x1.size a
  hwx0_0 : ∀ i : grid0.Coords, EltTy.bits .f32 = 32 ∨ (Rect.block (s := S1048576x1) S4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x49.size a ≤ S1048576x49.size a
  hwx0_1 : ∀ i : grid0.Coords, EltTy.bits .f32 = 32 ∨ (Rect.block (s := S1048576x49) S4096x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x49.size a ≤ S1048576x49.size a
  hwx0_2 : ∀ i : grid0.Coords, EltTy.bits .f32 = 32 ∨ (Rect.block (s := S1048576x49) S4096x49.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S98x32.size a ≤ S98x32.size a
  hwx0_3 : ∀ i : grid0.Coords, EltTy.bits .bf16 = 32 ∨ (Rect.block (s := S98x32) S98x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S98x32.size a ≤ S98x32.size a
  hwx0_5 : ∀ i : grid0.Coords, EltTy.bits .bf16 = 32 ∨ (Rect.block (s := S98x32) S98x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .bf16 = 32 ∨ (Rect.block (s := S32x32) S32x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S64x1.size a
  hwx0_11 : ∀ i : grid0.Coords, EltTy.bits .bf16 = 32 ∨ (Rect.block (s := S64x1) S64x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x1.size a ≤ S1048576x1.size a
  hwx0_13 : ∀ i : grid0.Coords, EltTy.bits .f32 = 32 ∨ (Rect.block (s := S1048576x1) S4096x1.size (cc0_transform_13 i) (hinb0_13 i)).WholeWords (EltTy.packing .f32)

variable [Facts₀]

def dot_S4096x98_S98x32_S4096x32_1_0_0_1_n_n : DotDims S4096x98 S98x32 S4096x32 where
  lhsContracting := [1]
  rhsContracting := [0]
  lhsNonContracting := [0]
  rhsNonContracting := [1]
  lhsBatch := []
  rhsBatch := []
  wf := dot_S4096x98_S98x32_S4096x32_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x49.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x49.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S98x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S98x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S4096x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1048576x1 : Shape := ⟨2, ![1048576, 1]⟩
abbrev S1048576x49 : Shape := ⟨2, ![1048576, 49]⟩
abbrev S32x98 : Shape := ⟨2, ![32, 98]⟩
abbrev S32 : Shape := ⟨1, ![32]⟩
abbrev S32x64 : Shape := ⟨2, ![32, 64]⟩
abbrev S32x32 : Shape := ⟨2, ![32, 32]⟩
abbrev S1x64 : Shape := ⟨2, ![1, 64]⟩
abbrev S1 : Shape := ⟨1, ![1]⟩
abbrev S1048576x98 : Shape := ⟨2, ![1048576, 98]⟩
abbrev S98x32 : Shape := ⟨2, ![98, 32]⟩
abbrev S1048576x32 : Shape := ⟨2, ![1048576, 32]⟩
abbrev S1x32 : Shape := ⟨2, ![1, 32]⟩
abbrev S1048576x64 : Shape := ⟨2, ![1048576, 64]⟩
abbrev S_ : Shape := ⟨0, ![]⟩
abbrev S64x32 : Shape := ⟨2, ![64, 32]⟩
abbrev S64x1 : Shape := ⟨2, ![64, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S1048576x1, .f32⟩
  | .hbm, ⟨1, _⟩ => ⟨S1048576x49, .f32⟩
  | .hbm, ⟨2, _⟩ => ⟨S1048576x49, .f32⟩
  | .hbm, ⟨3, _⟩ => ⟨S32x98, .f32⟩
  | .hbm, ⟨4, _⟩ => ⟨S32, .f32⟩
  | .hbm, ⟨5, _⟩ => ⟨S32x98, .f32⟩
  | .hbm, ⟨6, _⟩ => ⟨S32, .f32⟩
  | .hbm, ⟨7, _⟩ => ⟨S32x64, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x64, .f32⟩
  | .hbm, ⟨12, _⟩ => ⟨S1, .f32⟩
  | .hbm, ⟨13, _⟩ => ⟨S1048576x98, .f32⟩
  | .hbm, ⟨14, _⟩ => ⟨S98x32, .f32⟩
  | .hbm, ⟨15, _⟩ => ⟨S1048576x32, .f32⟩
  | .hbm, ⟨16, _⟩ => ⟨S1x32, .f32⟩
  | .hbm, ⟨17, _⟩ => ⟨S1048576x32, .f32⟩
  | .hbm, ⟨18, _⟩ => ⟨S1048576x32, .f32⟩
  | .hbm, ⟨19, _⟩ => ⟨S1048576x98, .f32⟩
  | .hbm, ⟨20, _⟩ => ⟨S98x32, .f32⟩
  | .hbm, ⟨21, _⟩ => ⟨S1048576x32, .f32⟩
  | .hbm, ⟨22, _⟩ => ⟨S1x32, .f32⟩
  | .hbm, ⟨23, _⟩ => ⟨S1048576x32, .f32⟩
  | .hbm, ⟨24, _⟩ => ⟨S1048576x32, .f32⟩
  | .hbm, ⟨25, _⟩ => ⟨S1048576x64, .f32⟩
  | .hbm, ⟨26, _⟩ => ⟨S1048576x64, .f32⟩
  | .hbm, ⟨27, _⟩ => ⟨S1048576x64, .f32⟩
  | .hbm, ⟨28, _⟩ => ⟨S1048576x64, .f32⟩
  | .hbm, ⟨29, _⟩ => ⟨S_, .f32⟩
  | .hbm, ⟨30, _⟩ => ⟨S1048576x1, .f32⟩
  | .hbm, ⟨31, _⟩ => ⟨S1048576x1, .f32⟩
  | .hbm, ⟨32, _⟩ => ⟨S1048576x64, .f32⟩
  | .hbm, ⟨33, _⟩ => ⟨S1048576x64, .f32⟩
  | .hbm, ⟨34, _⟩ => ⟨S1048576x64, .f32⟩
  | .hbm, ⟨35, _⟩ => ⟨S_, .f32⟩
  | .hbm, ⟨36, _⟩ => ⟨S1048576x64, .f32⟩
  | .hbm, ⟨37, _⟩ => ⟨S1048576x64, .f32⟩
  | .hbm, ⟨38, _⟩ => ⟨S64x32, .f32⟩
  | .hbm, ⟨39, _⟩ => ⟨S1048576x32, .f32⟩
  | .hbm, ⟨40, _⟩ => ⟨S1x32, .f32⟩
  | .hbm, ⟨41, _⟩ => ⟨S1048576x32, .f32⟩
  | .hbm, ⟨42, _⟩ => ⟨S1048576x32, .f32⟩
  | .hbm, ⟨43, _⟩ => ⟨S_, .f32⟩
  | .hbm, ⟨44, _⟩ => ⟨S1048576x32, .f32⟩
  | .hbm, ⟨45, _⟩ => ⟨S1048576x32, .f32⟩
  | .hbm, ⟨46, _⟩ => ⟨S32x32, .f32⟩
  | .hbm, ⟨47, _⟩ => ⟨S1048576x32, .f32⟩
  | .hbm, ⟨48, _⟩ => ⟨S1x32, .f32⟩
  | .hbm, ⟨49, _⟩ => ⟨S1048576x32, .f32⟩
  | .hbm, ⟨50, _⟩ => ⟨S1048576x32, .f32⟩
  | .hbm, ⟨51, _⟩ => ⟨S_, .f32⟩
  | .hbm, ⟨52, _⟩ => ⟨S1048576x32, .f32⟩
  | .hbm, ⟨53, _⟩ => ⟨S1048576x32, .f32⟩
  | .hbm, ⟨54, _⟩ => ⟨S1048576x64, .f32⟩
  | .hbm, ⟨55, _⟩ => ⟨S64x1, .f32⟩
  | .hbm, ⟨56, _⟩ => ⟨S1048576x1, .f32⟩
  | .hbm, ⟨57, _⟩ => ⟨S1x1, .f32⟩
  | .hbm, ⟨58, _⟩ => ⟨S1048576x1, .f32⟩
  | .hbm, ⟨59, _⟩ => ⟨S1048576x1, .f32⟩
  | _, _ => ⟨S1048576x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_cst : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call2_cst : Ref sig .tc := ⟨.hbm, 51, rfl⟩
abbrev main_call2_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  concatenates_S1048576x49_S1048576x49_S1048576x98_d1 : Shape.Concatenates [S1048576x49, S1048576x49] S1048576x98 1
  transposes_S32x98_S98x32_1_0 : S32x98.Transposes [1, 0] S98x32
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  concatenates_S1048576x32_S1048576x32_S1048576x64_d1 : Shape.Concatenates [S1048576x32, S1048576x32] S1048576x64 1
  bcast_S1048576x1_S1048576x64_0_1 : S1048576x1.BroadcastsInDim S1048576x64 (![0, 1] : Fin 2 → Fin S1048576x64.rank)
  bcast_S_S1048576x1 : S_.BroadcastsInDim S1048576x1 (![] : Fin 0 → Fin S1048576x1.rank)
  bcast_S_S1048576x64 : S_.BroadcastsInDim S1048576x64 (![] : Fin 0 → Fin S1048576x64.rank)
  transposes_S32x64_S64x32_1_0 : S32x64.Transposes [1, 0] S64x32
  bcast_S_S1048576x32 : S_.BroadcastsInDim S1048576x32 (![] : Fin 0 → Fin S1048576x32.rank)
  transposes_S32x32_S32x32_1_0 : S32x32.Transposes [1, 0] S32x32
  transposes_S1x64_S64x1_1_0 : S1x64.Transposes [1, 0] S64x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S1048576x98_S98x32_S1048576x32_1_0_0_1_n_n_wf : DotDims.WF S1048576x98 S98x32 S1048576x32 [1] [0] [0] [1] [] []
  dot_S1048576x64_S64x32_S1048576x32_1_0_0_1_n_n_wf : DotDims.WF S1048576x64 S64x32 S1048576x32 [1] [0] [0] [1] [] []
  dot_S1048576x32_S32x32_S1048576x32_1_0_0_1_n_n_wf : DotDims.WF S1048576x32 S32x32 S1048576x32 [1] [0] [0] [1] [] []
  dot_S1048576x64_S64x1_S1048576x1_1_0_0_1_n_n_wf : DotDims.WF S1048576x64 S64x1 S1048576x1 [1] [0] [0] [1] [] []

variable [Facts₀]

def dot_S1048576x98_S98x32_S1048576x32_1_0_0_1_n_n : DotDims S1048576x98 S98x32 S1048576x32 where
  lhsContracting := [1]
  rhsContracting := [0]
  lhsNonContracting := [0]
  rhsNonContracting := [1]
  lhsBatch := []
  rhsBatch := []
  wf := dot_S1048576x98_S98x32_S1048576x32_1_0_0_1_n_n_wf
def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Spec.lean ====
/-
  The network both programs compute, as mathematics on the extended reals.

  One input row is a scalar `p` and two 49-vectors `w`, `b`.  With  fw = Ww · (w ‖ b) + bw  and  fb = Wb · (b ‖ w) + bb
  (two affine maps of the two orders of laying the vectors end to end), the mixed features are
      base = max (p · (fw ‖ fb) + (1 − p) · (fb ‖ fw), 0),
  then  x = max (W0 · base + b0, 0),  x' = max (W1 · x + b1, 0),  and the row's result is  W2 · (x ‖ x') + b2.
  Here  W · v  is  fun j => ∑ k, v k * W j k : a weight matrix is stored with one ROW per output.  The two float
  literals are kept as their words (the word of 1.0 and the word of 0.0): both programs spell the same words, so
  they are never evaluated.
  `result` is the whole output array: entry (R, 0) is `rowOut` of row R of the three per-row arrays.
-/
import Idealize.ShloMosaic.PureOps.Ideal
import Idealize.ShloMosaic.Lib.ValueIdx

noncomputable section

namespace Cert.Net

open Idealize.ShloMosaic Idealize.ShloMosaic.ValueIdx

/-- The word of 0.0 and the word of 1.0, read as extended reals. -/
abbrev zeroW : EReal := Ideal.ofBits .f32 0x00000000#32
abbrev oneW : EReal := Ideal.ofBits .f32 0x3F800000#32

/-- Two 49-vectors end to end. -/
def join49 (u v : Fin 49 → EReal) (k : Fin 98) : EReal :=
  if h : k.val < 49 then u ⟨k.val, h⟩ else v ⟨k.val - 49, by have := k.isLt; omega⟩

/-- Two 32-vectors end to end. -/
def join32 (u v : Fin 32 → EReal) (k : Fin 64) : EReal :=
  if h : k.val < 32 then u ⟨k.val, h⟩ else v ⟨k.val - 32, by have := k.isLt; omega⟩

/-- An affine map, the weight stored one row per output. -/
def affine {K N : Nat} (W : Fin N → Fin K → EReal) (c : Fin N → EReal) (v : Fin K → EReal) (j : Fin N) : EReal :=
  (∑ k : Fin K, v k * W j k) + c j

/-- The two feature transforms of a row. -/
def featW (w b : Fin 49 → EReal) (Ww : Fin 32 → Fin 98 → EReal) (bw : Fin 32 → EReal) : Fin 32 → EReal :=
  affine Ww bw (join49 w b)
def featB (w b : Fin 49 → EReal) (Wb : Fin 32 → Fin 98 → EReal) (bb : Fin 32 → EReal) : Fin 32 → EReal :=
  affine Wb bb (join49 b w)

/-- The mixed, rectified features of a row. -/
def base (p : EReal) (fw fb : Fin 32 → EReal) (k : Fin 64) : EReal :=
  max (p * join32 fw fb k + (oneW - p) * join32 fb fw k) zeroW

/-- A rectified affine layer. -/
def layer {K N : Nat} (W : Fin N → Fin K → EReal) (c : Fin N → EReal) (v : Fin K → EReal) (j : Fin N) : EReal :=
  max (affine W c v j) zeroW

/-- The output head of a row. -/
def head (W2 : Fin 64 → EReal) (b2 : EReal) (x x' : Fin 32 → EReal) : EReal :=
  (∑ k : Fin 64, join32 x x' k * W2 k) + b2

/-- One row's result. -/
def rowOut (p : EReal) (w b : Fin 49 → EReal)
    (Ww : Fin 32 → Fin 98 → EReal) (bw : Fin 32 → EReal) (Wb : Fin 32 → Fin 98 → EReal) (bb : Fin 32 → EReal)
    (W0 : Fin 32 → Fin 64 → EReal) (b0 : Fin 32 → EReal) (W1 : Fin 32 → Fin 32 → EReal) (b1 : Fin 32 → EReal)
    (W2 : Fin 64 → EReal) (b2 : EReal) : EReal :=
  head W2 b2 (layer W0 b0 (base p (featW w b Ww bw) (featB w b Wb bb)))
    (layer W1 b1 (layer W0 b0 (base p (featW w b Ww bw) (featB w b Wb bb))))

/-- The whole output array as one function of the thirteen argument arrays. -/
def result (x0 : (⟨2, ![1048576, 1]⟩ : Shape).Idx → EReal) (x1 x2 : (⟨2, ![1048576, 49]⟩ : Shape).Idx → EReal)
    (x3 : (⟨2, ![32, 98]⟩ : Shape).Idx → EReal) (x4 : (⟨1, ![32]⟩ : Shape).Idx → EReal)
    (x5 : (⟨2, ![32, 98]⟩ : Shape).Idx → EReal) (x6 : (⟨1, ![32]⟩ : Shape).Idx → EReal)
    (x7 : (⟨2, ![32, 64]⟩ : Shape).Idx → EReal) (x8 : (⟨1, ![32]⟩ : Shape).Idx → EReal)
    (x9 : (⟨2, ![32, 32]⟩ : Shape).Idx → EReal) (x10 : (⟨1, ![32]⟩ : Shape).Idx → EReal)
    (x11 : (⟨2, ![1, 64]⟩ : Shape).Idx → EReal) (x12 : (⟨1, ![1]⟩ : Shape).Idx → EReal)
    (i : (⟨2, ![1048576, 1]⟩ : Shape).Idx) : EReal :=
  rowOut (x0 (ix2 (i 0) (0 : Fin 1))) (fun k => x1 (ix2 (i 0) k)) (fun k => x2 (ix2 (i 0) k))
    (fun j k => x3 (ix2 j k)) (fun j => x4 (ix1 j)) (fun j k => x5 (ix2 j k)) (fun j => x6 (ix1 j))
    (fun j k => x7 (ix2 j k)) (fun j => x8 (ix1 j)) (fun j k => x9 (ix2 j k)) (fun j => x10 (ix1 j))
    (fun k => x11 (ix2 (0 : Fin 1) k)) (x12 (ix1 (0 : Fin 1)))

end Cert.Net

end
-- ==== Proof.KernelRows.lean ====
/-
  The kernel body's stored value, read at one row of a block.

  The body loads the block's rows of the three per-row arrays and the (already transposed) weight matrices and bias
  rows, and stores a [4096, 1] column.  Read at row r, that column's entry is `rowOut` of row r's data: each matrix
  product into a zero accumulator is the plain sum over the contracted coordinate, a change of float format is the
  identity on the extended reals, two blocks laid side by side read the first or the second by the column, a bias row
  spread down the rows reads the bias, the scalar column spread along the rows reads the row's scalar.  The weight
  matrices arrive transposed: entry (k, j) of the loaded matrix is the weight of input k for output j.
-/
import proofs.«170272_j32014686224968_1_alg».proof.Proof.Gen.KernelIdeal.Skeleton
import proofs.«170272_j32014686224968_1_alg».proof.Proof.LibDense
import proofs.«170272_j32014686224968_1_alg».proof.Proof.Spec
import Idealize.ShloMosaic.Lib.ValueLayout

noncomputable section

namespace Cert.KernelIdeal.RowValue

open Cert.KernelIdeal Cert.KernelIdeal.Gen Idealize.ShloMosaic Idealize.ShloMosaic.ValueIdx Cert.Net Cert.LibDense

variable (r : Fin 4096)

/-- A bias row added and the result rectified, at (r, j). -/
theorem reluBias_at (v : FVec Ideal S4096x32 .f32) (bias : FVec Ideal S1x32 .f32) (j : Fin 32) :
    maximumf (addf v (broadcastTo S4096x32 bias broadcasts_S1x32_S4096x32))
        (broadcast S4096x32 (Scalar.ofBits .f32 0x00000000#32)) (ix2 r j)
      = max (v (ix2 r j) + bias (ix2 (0 : Fin 1) j)) zeroW :=
  congrArg (fun t => max (v (ix2 r j) + t) zeroW) (broadcastTo_1b_ab_apply bias broadcasts_S1x32_S4096x32 r j)

/-- One feature transform of the block at (r, j): the affine map of the two 49-blocks laid side by side. -/
theorem feat_at (a b : FVec Ideal S4096x49 .f32) (w : FVec Ideal S98x32 .bf16) (bias : FVec Ideal S1x32 .f32) (j : Fin 32) :
    addf (matmul dot_S4096x98_S98x32_S4096x32_1_0_0_1_n_n none
          (truncf .bf16 (concatenate S4096x98 1 [⟨S4096x49, a⟩, ⟨S4096x49, b⟩] concatenates_S4096x49_S4096x49_S4096x98_d1) bitsLt_bf16_f32)
          w (constant S4096x32 .f32 0x00000000#32))
        (broadcastTo S4096x32 bias broadcasts_S1x32_S4096x32) (ix2 r j)
      = affine (fun j k => w (ix2 k j)) (fun j => bias (ix2 (0 : Fin 1) j))
          (join49 (fun k => a (ix2 r k)) (fun k => b (ix2 r k))) j := by
  refine (dense_apply dot_S4096x98_S98x32_S4096x32_1_0_0_1_n_n_wf _ w bias broadcasts_S1x32_S4096x32 r j).trans ?_
  unfold affine
  refine congrArg (· + bias (ix2 (0 : Fin 1) j)) (Finset.sum_congr rfl fun k _ => congrArg (· * w (ix2 k j)) ?_)
  exact concat_cols_apply rfl a b concatenates_S4096x49_S4096x49_S4096x98_d1 r k

/-- The mixed, rectified features at (r, k), from the two feature blocks and the scalar column. -/
theorem base_at (p : FVec Ideal S4096x1 .f32) (fw fb : FVec Ideal S4096x32 .f32) (k : Fin 64) :
    maximumf (addf
          (mulf (broadcastTo S4096x64 p broadcasts_S4096x1_S4096x64)
            (concatenate S4096x64 1 [⟨S4096x32, fw⟩, ⟨S4096x32, fb⟩] concatenates_S4096x32_S4096x32_S4096x64_d1))
          (mulf (broadcastTo S4096x64 (subf (broadcast S4096x1 (Scalar.ofBits .f32 0x3F800000#32)) p) broadcasts_S4096x1_S4096x64)
            (concatenate S4096x64 1 [⟨S4096x32, fb⟩, ⟨S4096x32, fw⟩] concatenates_S4096x32_S4096x32_S4096x64_d1)))
        (broadcast S4096x64 (Scalar.ofBits .f32 0x00000000#32)) (ix2 r k)
      = base (p (ix2 r (0 : Fin 1))) (fun j => fw (ix2 r j)) (fun j => fb (ix2 r j)) k := by
  unfold base
  refine congrArg (max · zeroW) (congrArg₂ (· + ·) (congrArg₂ (· * ·) ?_ ?_) (congrArg₂ (· * ·) ?_ ?_))
  · exact spread_col_apply p broadcasts_S4096x1_S4096x64 r k
  · exact concat_cols_apply rfl fw fb concatenates_S4096x32_S4096x32_S4096x64_d1 r k
  · exact spread_col_apply (subf (broadcast S4096x1 (Scalar.ofBits .f32 0x3F800000#32)) p) broadcasts_S4096x1_S4096x64 r k
  · exact concat_cols_apply rfl fb fw concatenates_S4096x32_S4096x32_S4096x64_d1 r k

/-- The mixed features of row r of a block, from the block's loads. -/
def blkBase (v0 v1 : Vec Ideal S4096x49 .f32) (v2 : Vec Ideal S4096x1 .f32) (v7 : Vec Ideal S98x32 .bf16) (v10 : Vec Ideal S1x32 .f32)
    (v14 : Vec Ideal S98x32 .bf16) (v17 : Vec Ideal S1x32 .f32) : Fin 64 → EReal :=
  base (v2 (ix2 r (0 : Fin 1)))
    (featW (fun k => v0 (ix2 r k)) (fun k => v1 (ix2 r k)) (fun j k => v7 (ix2 k j)) (fun j => v10 (ix2 (0 : Fin 1) j)))
    (featB (fun k => v0 (ix2 r k)) (fun k => v1 (ix2 r k)) (fun j k => v14 (ix2 k j)) (fun j => v17 (ix2 (0 : Fin 1) j)))

/-- The first part of the body (up to the first hidden layer's product) at (r, j). -/
theorem pay2_at (v0 v1 : Vec Ideal S4096x49 .f32) (v2 : Vec Ideal S4096x1 .f32) (v7 : Vec Ideal S98x32 .bf16) (v10 : Vec Ideal S1x32 .f32)
    (v14 : Vec Ideal S98x32 .bf16) (v17 : Vec Ideal S1x32 .f32) (v33 : Vec Ideal S64x32 .bf16) (j : Fin 32) :
    k0_pay2 (F := Ideal) v0 v1 v2 v7 v10 v14 v17 v33 (ix2 r j)
      = ∑ k : Fin 64, blkBase r v0 v1 v2 v7 v10 v14 v17 k * v33 (ix2 k j) := by
  unfold k0_pay2
  refine (matmul_zero_plain (φ₁ := .bf16) (φ₂ := .bf16) dot_S4096x64_S64x32_S4096x32_1_0_0_1_n_n_wf none _ _ r j).trans ?_
  refine Finset.sum_congr rfl fun k _ => congrArg₂ (· * ·) ?_
    (congrFun (shapeCast_self v33 shapeCasts_S64x32_S64x32) (ix2 k j))
  refine (base_at r v2 _ _ k).trans ?_
  unfold blkBase featW featB
  refine congrArg₂ (fun f g => base (v2 (ix2 r (0 : Fin 1))) f g k) (funext fun q => ?_) (funext fun q => ?_)
  · refine (feat_at r v0 v1 _ _ q).trans ?_
    rw [shapeCast_self, shapeCast_self]
  · refine (feat_at r v1 v0 _ _ q).trans ?_
    rw [shapeCast_self, shapeCast_self]

/-- The rest of the body at row r, from the first hidden layer's product `v35`. -/
theorem pay1_at (v35 : FVec Ideal S4096x32 .f32) (v36 : Vec Ideal S1x32 .f32) (v43 : Vec Ideal S32x32 .bf16) (v46 : Vec Ideal S1x32 .f32)
    (v54 : Vec Ideal S64x1 .bf16) (v57 : Vec Ideal S1x1 .f32) :
    k0_pay1 (F := Ideal) v35 v36 v43 v46 v54 v57 (ix2 r (0 : Fin 1))
      = head (fun k => v54 (ix2 k (0 : Fin 1))) (v57 (ix2 (0 : Fin 1) (0 : Fin 1)))
          (fun j => max (v35 (ix2 r j) + v36 (ix2 (0 : Fin 1) j)) zeroW)
          (layer (fun j k => v43 (ix2 k j)) (fun j => v46 (ix2 (0 : Fin 1) j))
            (fun j => max (v35 (ix2 r j) + v36 (ix2 (0 : Fin 1) j)) zeroW)) := by
  unfold k0_pay1
  refine (dense_apply (φ₁ := .bf16) (φ₂ := .bf16) dot_S4096x64_S64x1_S4096x1_1_0_0_1_n_n_wf _ _ _ broadcasts_S1x1_S4096x1 r (0 : Fin 1)).trans ?_
  unfold head
  refine congrArg₂ (· + ·) (Finset.sum_congr rfl fun k _ => congrArg₂ (· * ·) ?_
      (congrFun (shapeCast_self v54 shapeCasts_S64x1_S64x1) (ix2 k (0 : Fin 1))))
    (congrFun (shapeCast_self v57 shapeCasts_S1x1_S1x1) (ix2 (0 : Fin 1) (0 : Fin 1)))
  refine (concat_cols_apply rfl _ _ concatenates_S4096x32_S4096x32_S4096x64_d1 r k).trans ?_
  unfold join32
  by_cases hk : k.val < 32
  · rw [dif_pos hk, dif_pos hk]
    exact (reluBias_at r v35 _ ⟨k.val, hk⟩).trans (by rw [shapeCast_self])
  · rw [dif_neg hk, dif_neg hk]
    refine (congrArg (max · zeroW) (dense_apply (φ₁ := .bf16) (φ₂ := .bf16) dot_S4096x32_S32x32_S4096x32_1_0_0_1_n_n_wf _ _ _ broadcasts_S1x32_S4096x32 r _)).trans ?_
    unfold layer affine
    refine congrArg (max · zeroW) (congrArg₂ (· + ·) (Finset.sum_congr rfl fun q _ => congrArg₂ (· * ·) ?_
        (congrFun (shapeCast_self v43 shapeCasts_S32x32_S32x32) _)) (congrFun (shapeCast_self v46 shapeCasts_S1x32_S1x32) _))
    exact (reluBias_at r v35 _ q).trans (by rw [shapeCast_self])

/-- The body's stored column at row r is the network's result for row r of the block's loads. -/
theorem pay_at (v0 v1 : Vec Ideal S4096x49 .f32) (v2 : Vec Ideal S4096x1 .f32) (v7 : Vec Ideal S98x32 .bf16) (v10 : Vec Ideal S1x32 .f32)
    (v14 : Vec Ideal S98x32 .bf16) (v17 : Vec Ideal S1x32 .f32) (v33 : Vec Ideal S64x32 .bf16) (v36 : Vec Ideal S1x32 .f32)
    (v43 : Vec Ideal S32x32 .bf16) (v46 : Vec Ideal S1x32 .f32) (v54 : Vec Ideal S64x1 .bf16) (v57 : Vec Ideal S1x1 .f32) :
    k0_pay1 (F := Ideal) (k0_pay2 (F := Ideal) v0 v1 v2 v7 v10 v14 v17 v33) v36 v43 v46 v54 v57 (ix2 r (0 : Fin 1))
      = rowOut (v2 (ix2 r (0 : Fin 1))) (fun k => v0 (ix2 r k)) (fun k => v1 (ix2 r k))
          (fun j k => v7 (ix2 k j)) (fun j => v10 (ix2 (0 : Fin 1) j)) (fun j k => v14 (ix2 k j)) (fun j => v17 (ix2 (0 : Fin 1) j))
          (fun j k => v33 (ix2 k j)) (fun j => v36 (ix2 (0 : Fin 1) j)) (fun j k => v43 (ix2 k j)) (fun j => v46 (ix2 (0 : Fin 1) j))
          (fun k => v54 (ix2 k (0 : Fin 1))) (v57 (ix2 (0 : Fin 1) (0 : Fin 1))) := by
  refine (pay1_at r _ v36 v43 v46 v54 v57).trans ?_
  have hx : (fun j => max (k0_pay2 (F := Ideal) v0 v1 v2 v7 v10 v14 v17 v33 (ix2 r j) + v36 (ix2 (0 : Fin 1) j)) zeroW)
      = layer (fun j k => v33 (ix2 k j)) (fun j => v36 (ix2 (0 : Fin 1) j)) (blkBase r v0 v1 v2 v7 v10 v14 v17) :=
    funext fun j => by rw [pay2_at]; rfl
  rw [hx]
  rfl

end Cert.KernelIdeal.RowValue

end
-- ==== Proof.ArrayValue.lean ====
/-
  From blocks to the whole array.

  Grid point t stages rows 4096·t … 4096·t + 4095 of the three per-row arrays and the whole of every weight and bias
  array; the weight arrays were transposed (and changed in format, the identity here) and the bias vectors made rows by
  the host operations before the region.  So row r of block t is row 4096·t + r of the arguments, the loaded weight at
  (k, j) is the argument's weight at (j, k), and what point t writes back is block t of the network's result array.
  The 256 blocks cover the result array (row R lies in block R / 4096), so the array after the run is that result.
-/
import proofs.«170272_j32014686224968_1_alg».proof.Proof.Gen.KernelIdeal.Value
import proofs.«170272_j32014686224968_1_alg».proof.Proof.KernelRows
import proofs.«170272_j32014686224968_1_alg».proof.Proof.Spec
import Idealize.ShloMosaic.Lib.StableHlo.Run
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (m : (ℓ : Loc nD τ sig) → Buf (Elt Ideal) ℓ) (ρ : Dev nD → PrngReg)

/-- The network's result array of the thirteen arguments as launched on core c. -/
def netResult (c : Dev nD) : S1048576x1.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! ## The arrays the host operations prepare -/

theorem V_v1 (c : Dev nD) : @Eq (S98x32.Idx → EReal) (V m c main_v1)
      (truncf (F := Ideal) .bf16 (transpose S98x32 [1, 0] ((m ((c : Thread nD τ).loc main_arg3)) : S32x98.Idx → EReal) transposes_S32x98_S98x32_1_0) bitsLt_bf16_f32) := by
  dsimp only [Gen.V, Gen.hostOps0]; after_results
theorem V_v3 (c : Dev nD) : @Eq (S98x32.Idx → EReal) (V m c main_v3)
      (truncf (F := Ideal) .bf16 (transpose S98x32 [1, 0] ((m ((c : Thread nD τ).loc main_arg5)) : S32x98.Idx → EReal) transposes_S32x98_S98x32_1_0) bitsLt_bf16_f32) := by
  dsimp only [Gen.V, Gen.hostOps0]; after_results
theorem V_v5 (c : Dev nD) : @Eq (S64x32.Idx → EReal) (V m c main_v5)
      (truncf (F := Ideal) .bf16 (transpose S64x32 [1, 0] ((m ((c : Thread nD τ).loc main_arg7)) : S32x64.Idx → EReal) transposes_S32x64_S64x32_1_0) bitsLt_bf16_f32) := by
  dsimp only [Gen.V, Gen.hostOps0]; after_results
theorem V_v7 (c : Dev nD) : @Eq (S32x32.Idx → EReal) (V m c main_v7)
      (truncf (F := Ideal) .bf16 (transpose S32x32 [1, 0] ((m ((c : Thread nD τ).loc main_arg9)) : S32x32.Idx → EReal) transposes_S32x32_S32x32_1_0) bitsLt_bf16_f32) := by
  dsimp only [Gen.V, Gen.hostOps0]; after_results
theorem V_v9 (c : Dev nD) : @Eq (S64x1.Idx → EReal) (V m c main_v9)
      (truncf (F := Ideal) .bf16 (transpose S64x1 [1, 0] ((m ((c : Thread nD τ).loc main_arg11)) : S1x64.Idx → EReal) transposes_S1x64_S64x1_1_0) bitsLt_bf16_f32) := by
  dsimp only [Gen.V, Gen.hostOps0]; after_results
theorem V_v10 (c : Dev nD) : (V m c main_v10 : S1x32.Idx → EReal)
    = shapeCast S1x32 ((m ((c : Thread nD τ).loc main_arg4)) : S32.Idx → EReal) shapeCasts_S32_S1x32 := by
  dsimp only [Gen.V, Gen.hostOps0]; after_results; rfl
theorem V_v11 (c : Dev nD) : (V m c main_v11 : S1x32.Idx → EReal)
    = shapeCast S1x32 ((m ((c : Thread nD τ).loc main_arg6)) : S32.Idx → EReal) shapeCasts_S32_S1x32 := by
  dsimp only [Gen.V, Gen.hostOps0]; after_results; rfl
theorem V_v12 (c : Dev nD) : (V m c main_v12 : S1x32.Idx → EReal)
    = shapeCast S1x32 ((m ((c : Thread nD τ).loc main_arg8)) : S32.Idx → EReal) shapeCasts_S32_S1x32 := by
  dsimp only [Gen.V, Gen.hostOps0]; after_results; rfl
theorem V_v13 (c : Dev nD) : (V m c main_v13 : S1x32.Idx → EReal)
    = shapeCast S1x32 ((m ((c : Thread nD τ).loc main_arg10)) : S32.Idx → EReal) shapeCasts_S32_S1x32 := by
  dsimp only [Gen.V, Gen.hostOps0]; after_results; rfl
theorem V_v14 (c : Dev nD) : (V m c main_v14 : S1x1.Idx → EReal)
    = shapeCast S1x1 ((m ((c : Thread nD τ).loc main_arg12)) : S1.Idx → EReal) shapeCasts_S1_S1x1 := by
  dsimp only [Gen.V, Gen.hostOps0]; after_results; rfl

/-! ## The index maps, decided over the 256 grid points -/

/-- The four windows that move with the grid sit at block row t, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- The ten resident windows sit at block (0, 0) at every point. -/
theorem idx_resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Row r of block t, as a row of the whole arrays. -/
def rowOf (t : Fin cfg0.N) (r : Fin 4096) : Fin 1048576 :=
  ⟨t.val * 4096 + r.val, by have := t.isLt; have := r.isLt; have h : cfg0.N = 256 := N_0; omega⟩

/-! ## Each window's block read at an index -/

theorem rd0 (c : Dev nD) (t : Fin cfg0.N) (r : Fin 4096) (u : Fin 1) :
    iblk m c 0 t (ix2 r u) = (m ((c : Thread nD τ).loc main_arg0)) (ix2 (rowOf t r) (0 : Fin 1)) := by
  show V m c main_arg0 (((cfg0.win 0).blk t).view.emb (ix2 r u)) = _
  rw [V_main_arg0]
  obtain ⟨e0, e1, -⟩ := idx_rows t
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 1 + 1 * u.val = 0; have := u.isLt; omega

theorem rd1 (c : Dev nD) (t : Fin cfg0.N) (r : Fin 4096) (k : Fin 49) :
    iblk m c 1 t (ix2 r k) = (m ((c : Thread nD τ).loc main_arg1)) (ix2 (rowOf t r) k) := by
  show V m c main_arg1 (((cfg0.win 1).blk t).view.emb (ix2 r k)) = _
  rw [V_main_arg1]
  obtain ⟨-, -, e0, e1, -⟩ := idx_rows t
  refine congrArg _ (funext fun a => Fin.ext ?_)
  match a with
  | ⟨0, _⟩ => show win0_1.index t (0 : Fin 2) * 4096 + 1 * r.val = t.val * 4096 + r.val; omega
  | ⟨1, _⟩ => show win0_1.index t (1 : Fin 2) * 49 + 1 * k.val = k.val; omega

theorem rd2 (c : Dev nD) (t : Fin cfg0.N) (r : Fin 4096) (k : Fin 49) :
    iblk m c 2 t (ix2 r k) = (m ((c : Thread nD τ).loc main_arg2)) (ix2 (rowOf t r) k) := by
  show V m c main_arg2 (((cfg0.win 2).blk t).view.emb (ix2 r k)) = _
  rw [V_main_arg2]
  obtain ⟨-, -, -, -, e0, e1, -⟩ := idx_rows t
  refine congrArg _ (funext fun a => Fin.ext ?_)
  match a with
  | ⟨0, _⟩ => show win0_2.index t (0 : Fin 2) * 4096 + 1 * r.val = t.val * 4096 + r.val; omega
  | ⟨1, _⟩ => show win0_2.index t (1 : Fin 2) * 49 + 1 * k.val = k.val; omega

theorem rd3 (c : Dev nD) (t : Fin cfg0.N) (k : Fin 98) (j : Fin 32) :
    iblk m c 3 t (ix2 k j) = (m ((c : Thread nD τ).loc main_arg3)) (ix2 j k) := by
  show V m c main_v1 (((cfg0.win 3).blk t).view.emb (ix2 k j)) = _
  obtain ⟨e0, e1, -⟩ := idx_resident t
  have e : ((cfg0.win 3).blk t).view.emb (ix2 k j) = ix2 k j := funext fun a => Fin.ext (by
    match a with
    | ⟨0, _⟩ => show win0_3.index t (0 : Fin 2) * 98 + 1 * k.val = k.val; omega
    | ⟨1, _⟩ => show win0_3.index t (1 : Fin 2) * 32 + 1 * j.val = j.val; omega)
  rw [e, V_v1]
  exact transpose_ix2_apply _ transposes_S32x98_S98x32_1_0 k j

theorem rd4 (c : Dev nD) (t : Fin cfg0.N) (j : Fin 32) :
    iblk m c 4 t (ix2 (0 : Fin 1) j) = (m ((c : Thread nD τ).loc main_arg4)) (ix1 j) := by
  show V m c main_v10 (((cfg0.win 4).blk t).view.emb (ix2 (0 : Fin 1) j)) = _
  obtain ⟨-, -, e0, e1, -⟩ := idx_resident t
  have e : ((cfg0.win 4).blk t).view.emb (ix2 (0 : Fin 1) j) = ix2 (0 : Fin 1) j := funext fun a => Fin.ext (by
    match a with
    | ⟨0, _⟩ => show win0_4.index t (0 : Fin 2) * 1 + 1 * 0 = 0; omega
    | ⟨1, _⟩ => show win0_4.index t (1 : Fin 2) * 32 + 1 * j.val = j.val; omega)
  rw [e, V_v10]
  exact shapeCast_a_1a_apply _ shapeCasts_S32_S1x32 (0 : Fin 1) j

theorem rd5 (c : Dev nD) (t : Fin cfg0.N) (k : Fin 98) (j : Fin 32) :
    iblk m c 5 t (ix2 k j) = (m ((c : Thread nD τ).loc main_arg5)) (ix2 j k) := by
  show V m c main_v3 (((cfg0.win 5).blk t).view.emb (ix2 k j)) = _
  obtain ⟨-, -, -, -, e0, e1, -⟩ := idx_resident t
  have e : ((cfg0.win 5).blk t).view.emb (ix2 k j) = ix2 k j := funext fun a => Fin.ext (by
    match a with
    | ⟨0, _⟩ => show win0_5.index t (0 : Fin 2) * 98 + 1 * k.val = k.val; omega
    | ⟨1, _⟩ => show win0_5.index t (1 : Fin 2) * 32 + 1 * j.val = j.val; omega)
  rw [e, V_v3]
  exact transpose_ix2_apply _ transposes_S32x98_S98x32_1_0 k j

theorem rd6 (c : Dev nD) (t : Fin cfg0.N) (j : Fin 32) :
    iblk m c 6 t (ix2 (0 : Fin 1) j) = (m ((c : Thread nD τ).loc main_arg6)) (ix1 j) := by
  show V m c main_v11 (((cfg0.win 6).blk t).view.emb (ix2 (0 : Fin 1) j)) = _
  obtain ⟨-, -, -, -, -, -, e0, e1, -⟩ := idx_resident t
  have e : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 32 + 1 * j.val = j.val; omega)
  rw [e, V_v11]
  exact shapeCast_a_1a_apply _ shapeCasts_S32_S1x32 (0 : Fin 1) j

theorem rd7 (c : Dev nD) (t : Fin cfg0.N) (k : Fin 64) (j : Fin 32) :
    iblk m c 7 t (ix2 k j) = (m ((c : Thread nD τ).loc main_arg7)) (ix2 j k) := by
  show V m c main_v5 (((cfg0.win 7).blk t).view.emb (ix2 k j)) = _
  obtain ⟨-, -, -, -, -, -, -, -, e0, e1, -⟩ := idx_resident t
  have e : ((cfg0.win 7).blk t).view.emb (ix2 k j) = ix2 k j := funext fun a => Fin.ext (by
    match a with
    | ⟨0, _⟩ => show win0_7.index t (0 : Fin 2) * 64 + 1 * k.val = k.val; omega
    | ⟨1, _⟩ => show win0_7.index t (1 : Fin 2) * 32 + 1 * j.val = j.val; omega)
  rw [e, V_v5]
  exact transpose_ix2_apply _ transposes_S32x64_S64x32_1_0 k j

theorem rd8 (c : Dev nD) (t : Fin cfg0.N) (j : Fin 32) :
    iblk m c 8 t (ix2 (0 : Fin 1) j) = (m ((c : Thread nD τ).loc main_arg8)) (ix1 j) := by
  show V m c main_v12 (((cfg0.win 8).blk t).view.emb (ix2 (0 : Fin 1) j)) = _
  obtain ⟨-, -, -, -, -, -, -, -, -, -, e0, e1, -⟩ := idx_resident t
  have e : ((cfg0.win 8).blk t).view.emb (ix2 (0 : Fin 1) j) = ix2 (0 : Fin 1) j := funext fun a => Fin.ext (by
    match a with
    | ⟨0, _⟩ => show win0_8.index t (0 : Fin 2) * 1 + 1 * 0 = 0; omega
    | ⟨1, _⟩ => show win0_8.index t (1 : Fin 2) * 32 + 1 * j.val = j.val; omega)
  rw [e, V_v12]
  exact shapeCast_a_1a_apply _ shapeCasts_S32_S1x32 (0 : Fin 1) j

theorem rd9 (c : Dev nD) (t : Fin cfg0.N) (k : Fin 32) (j : Fin 32) :
    iblk m c 9 t (ix2 k j) = (m ((c : Thread nD τ).loc main_arg9)) (ix2 j k) := by
  show V m c main_v7 (((cfg0.win 9).blk t).view.emb (ix2 k j)) = _
  obtain ⟨-, -, -, -, -, -, -, -, -, -, -, -, e0, e1, -⟩ := idx_resident t
  have e : ((cfg0.win 9).blk t).view.emb (ix2 k j) = ix2 k j := funext fun a => Fin.ext (by
    match a with
    | ⟨0, _⟩ => show win0_9.index t (0 : Fin 2) * 32 + 1 * k.val = k.val; omega
    | ⟨1, _⟩ => show win0_9.index t (1 : Fin 2) * 32 + 1 * j.val = j.val; omega)
  rw [e, V_v7]
  exact transpose_ix2_apply _ transposes_S32x32_S32x32_1_0 k j

theorem rd10 (c : Dev nD) (t : Fin cfg0.N) (j : Fin 32) :
    iblk m c 10 t (ix2 (0 : Fin 1) j) = (m ((c : Thread nD τ).loc main_arg10)) (ix1 j) := by
  show V m c main_v13 (((cfg0.win 10).blk t).view.emb (ix2 (0 : Fin 1) j)) = _
  obtain ⟨-, -, -, -, -, -, -, -, -, -, -, -, -, -, e0, e1, -⟩ := idx_resident t
  have e : ((cfg0.win 10).blk t).view.emb (ix2 (0 : Fin 1) j) = ix2 (0 : Fin 1) j := funext fun a => Fin.ext (by
    match a with
    | ⟨0, _⟩ => show win0_10.index t (0 : Fin 2) * 1 + 1 * 0 = 0; omega
    | ⟨1, _⟩ => show win0_10.index t (1 : Fin 2) * 32 + 1 * j.val = j.val; omega)
  rw [e, V_v13]
  exact shapeCast_a_1a_apply _ shapeCasts_S32_S1x32 (0 : Fin 1) j

theorem rd11 (c : Dev nD) (t : Fin cfg0.N) (k : Fin 64) :
    iblk m c 11 t (ix2 k (0 : Fin 1)) = (m ((c : Thread nD τ).loc main_arg11)) (ix2 (0 : Fin 1) k) := by
  show V m c main_v9 (((cfg0.win 11).blk t).view.emb (ix2 k (0 : Fin 1))) = _
  obtain ⟨-, -, -, -, -, -, -, -, -, -, -, -, -, -, -, -, e0, e1, -⟩ := idx_resident t
  have e : ((cfg0.win 11).blk t).view.emb (ix2 k (0 : Fin 1)) = ix2 k (0 : Fin 1) := funext fun a => Fin.ext (by
    match a with
    | ⟨0, _⟩ => show win0_11.index t (0 : Fin 2) * 64 + 1 * k.val = k.val; omega
    | ⟨1, _⟩ => show win0_11.index t (1 : Fin 2) * 1 + 1 * 0 = 0; omega)
  rw [e, V_v9]
  exact transpose_ix2_apply _ transposes_S1x64_S64x1_1_0 k (0 : Fin 1)

theorem rd12 (c : Dev nD) (t : Fin cfg0.N) :
    iblk m c 12 t (ix2 (0 : Fin 1) (0 : Fin 1)) = (m ((c : Thread nD τ).loc main_arg12)) (ix1 (0 : Fin 1)) := by
  show V m c main_v14 (((cfg0.win 12).blk t).view.emb (ix2 (0 : Fin 1) (0 : Fin 1))) = _
  obtain ⟨-, -, -, -, -, -, -, -, -, -, -, -, -, -, -, -, -, -, e0, e1⟩ := idx_resident t
  have e : ((cfg0.win 12).blk t).view.emb (ix2 (0 : Fin 1) (0 : Fin 1)) = ix2 (0 : Fin 1) (0 : Fin 1) := funext fun a => Fin.ext (by
    match a with
    | ⟨0, _⟩ => show win0_12.index t (0 : Fin 2) * 1 + 1 * 0 = 0; omega
    | ⟨1, _⟩ => show win0_12.index t (1 : Fin 2) * 1 + 1 * 0 = 0; omega)
  rw [e, V_v14]
  exact shapeCast_a_1a_apply _ shapeCasts_S1_S1x1 (0 : Fin 1) (0 : Fin 1)

/-- Entry (r, 0) of the output block at point t is entry (4096·t + r, 0) of the output array. -/
theorem emb_out (t : Fin cfg0.N) (r : Fin 4096) :
    ((cfg0.win 13).blk t).view.emb (ix2 r (0 : Fin 1)) = ix2 (rowOf t r) (0 : Fin 1) := by
  obtain ⟨-, -, -, -, -, -, e0, e1⟩ := idx_rows t
  refine funext fun a => Fin.ext ?_
  match a with
  | ⟨0, _⟩ => show win0_13.index t (0 : Fin 2) * 4096 + 1 * r.val = t.val * 4096 + r.val; omega
  | ⟨1, _⟩ => show win0_13.index t (1 : Fin 2) * 1 + 1 * 0 = 0; omega

/-! ## What a point writes back, the cover, the array after the run -/

theorem offsets_zero : (![0, 0] : Fin 2 → Nat) = fun _ => 0 := funext fun a => by fin_cases a <;> rfl

/-- What point t writes back is block t of the network's result array. -/
theorem flushed_eq (c : Dev nD) (t : Fin cfg0.N) :
    (dats m 0 c).flushed 13 t = ((cfg0.win 13).blk t).view.read (Elt Ideal) (netResult m c) := by
  rw [Value.flushed13]
  unfold out0_13
  rw [View.canon_unit_zero offsets_zero]
  simp only [View.ld_unit_zero (S := S4096x49) offsets_zero, View.ld_unit_zero (S := S4096x1) offsets_zero,
    View.ld_unit_zero (S := S98x32) offsets_zero, View.ld_unit_zero (S := S1x32) offsets_zero,
    View.ld_unit_zero (S := S64x32) offsets_zero, View.ld_unit_zero (S := S32x32) offsets_zero,
    View.ld_unit_zero (S := S64x1) offsets_zero, View.ld_unit_zero (S := S1x1) offsets_zero]
  funext y
  obtain ⟨r, u, rfl⟩ : ∃ (r : Fin 4096) (u : Fin 1), y = ix2 r u := ⟨y 0, y 1, eq_ix2 y⟩
  obtain rfl : u = 0 := Fin.ext (by omega)
  show k0_pay1 (F := Ideal) (k0_pay2 (F := Ideal) (iblk m c 1 t) (iblk m c 2 t) (iblk m c 0 t) (iblk m c 3 t) (iblk m c 4 t)
        (iblk m c 5 t) (iblk m c 6 t) (iblk m c 7 t)) (iblk m c 8 t) (iblk m c 9 t) (iblk m c 10 t) (iblk m c 11 t)
        (iblk m c 12 t) (ix2 r (0 : Fin 1))
      = netResult m c (((cfg0.win 13).blk t).view.emb (ix2 r (0 : Fin 1)))
  rw [emb_out t r]
  refine (RowValue.pay_at r (iblk m c 1 t) (iblk m c 2 t) (iblk m c 0 t) (iblk m c 3 t) (iblk m c 4 t) (iblk m c 5 t)
    (iblk m c 6 t) (iblk m c 7 t) (iblk m c 8 t) (iblk m c 9 t) (iblk m c 10 t) (iblk m c 11 t) (iblk m c 12 t)).trans ?_
  simp only [rd0, rd1, rd2, rd3, rd4, rd5, rd6, rd7, rd8, rd9, rd10, rd11, rd12]
  rfl

/-- An index of the output array is in point t's block iff each coordinate is in the block's range on its axis. -/
theorem mem_blk (t : Fin cfg0.N) (i : S1048576x1.Idx) :
    i ∈ ((cfg0.win 13).blk t).view.set ↔ ∀ a : Fin 2, win0_13.index t a * S4096x1.size a ≤ (i a).val
      ∧ (i a).val < win0_13.index t a * S4096x1.size a + S4096x1.size a := by
  show i ∈ ((View.whole main_v15).slice (win0_13.rect t)).set ↔ _
  rw [View.set_slice_whole, Rect.mem_set_unit]
  exact Iff.rfl

/-- Every index of the output array is in some point's block: row R in block R / 4096. -/
theorem cover (i : S1048576x1.Idx) :
    ∃ t : Fin cfg0.N, (cfg0.win 13).flush t = true ∧ i ∈ ((cfg0.win 13).blk t).view.set := by
  have hi0 : (i 0).val < 1048576 := (i 0).isLt
  have hi1 : (i 1).val < 1 := (i 1).isLt
  have hN : cfg0.N = 256 := N_0
  refine ⟨⟨(i 0).val / 4096, by omega⟩, flush0_13 _, ?_⟩
  rw [mem_blk]
  obtain ⟨-, -, -, -, -, -, e0, e1⟩ := idx_rows ⟨(i 0).val / 4096, by omega⟩
  intro a
  match a with
  | ⟨0, _⟩ =>
    show win0_13.index ⟨(i 0).val / 4096, _⟩ (0 : Fin 2) * 4096 ≤ (i 0).val
      ∧ (i 0).val < win0_13.index ⟨(i 0).val / 4096, _⟩ (0 : Fin 2) * 4096 + 4096
    rw [e0]
    show (i 0).val / 4096 * 4096 ≤ (i 0).val ∧ (i 0).val < (i 0).val / 4096 * 4096 + 4096
    omega
  | ⟨1, _⟩ =>
    show win0_13.index ⟨(i 0).val / 4096, _⟩ (1 : Fin 2) * 1 ≤ (i 1).val
      ∧ (i 1).val < win0_13.index ⟨(i 0).val / 4096, _⟩ (1 : Fin 2) * 1 + 1
    rw [e1]
    omega

/-- The output array after the run is the network's result of the arguments. -/
theorem final (c : Dev nD) : (dats m 0 c).arrAt 13 cfg0.N = netResult m c :=
  (dats m 0 c).arrAt_eq_of_cover 13 (netResult m c) (fun t _ => flushed_eq m c t) cover

/-- The run with the output named: every weakly fair execution terminates with the result array at the network's
    result of the arguments, the arguments unchanged. -/
theorem run : θ_run defs (onTc (τ := τ) (main (F := Ideal))) ⟨m, fun _ => 0, ρ⟩ fun r => ∀ c : Dev nD,
      r.2.mem ((c : Thread nD τ).loc main_v15) = netResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.ArrayValue

end
-- ==== Proof.RefRows.lean ====
/-
  The reference program's result, read at one row.

  Stage by stage (the stages are the generated read-at-an-index module's `val_…` functions): the two feature
  transforms, the mixed rectified features, the two hidden layers, the output head.  The host's matrix product is the
  plain sum over the contracted coordinate, a transposed weight read at (k, j) is the weight at (j, k), a bias
  vector broadcast to a row and down the rows reads the bias, the scalar column broadcast along the rows reads the
  row's scalar, a broadcast scalar constant reads its word.  The result is `Cert.Net.result` of the arguments.
-/
import proofs.«170272_j32014686224968_1_alg».proof.Proof.Gen.ReferenceIdeal.Read
import proofs.«170272_j32014686224968_1_alg».proof.Proof.LibDense
import proofs.«170272_j32014686224968_1_alg».proof.Proof.Spec
import Idealize.ShloMosaic.Lib.ValueLayout

noncomputable section

namespace Cert.ReferenceIdeal.RowValue

open Cert.ReferenceIdeal Cert.ReferenceIdeal.Gen Cert.ReferenceIdeal.Read
open Idealize.ShloMosaic Idealize.ShloMosaic.ValueIdx Cert.Net Cert.LibDense

variable (x0 : (⟨S1048576x1, .f32⟩ : BufTy).Contents (Elt Ideal)) (x1 x2 : (⟨S1048576x49, .f32⟩ : BufTy).Contents (Elt Ideal))
  (x3 : (⟨S32x98, .f32⟩ : BufTy).Contents (Elt Ideal)) (x4 : (⟨S32, .f32⟩ : BufTy).Contents (Elt Ideal)) (x5 : (⟨S32x98, .f32⟩ : BufTy).Contents (Elt Ideal)) (x6 : (⟨S32, .f32⟩ : BufTy).Contents (Elt Ideal))
  (x7 : (⟨S32x64, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal))
  (x11 : (⟨S1x64, .f32⟩ : BufTy).Contents (Elt Ideal)) (x12 : (⟨S1, .f32⟩ : BufTy).Contents (Elt Ideal))
  (R : Fin 1048576)

/-- A bias vector made a row and spread down the rows, read at (R, j): the bias at j.  (The four bias stages of
    width 32 are one function of their vector.) -/
theorem bias4_at (j : Fin 32) : val_main_v4 (F := Ideal) x4 (ix2 R j) = x4 (ix1 j) :=
  (val_main_v4_apply x4 (ix2 R j)).trans ((val_main_v3_apply x4 _).trans
    (congrArg x4 (funext fun a => by match a with | ⟨0, _⟩ => rfl)))
theorem bias10_at (j : Fin 32) : val_main_v10 (F := Ideal) x6 (ix2 R j) = x6 (ix1 j) :=
  (val_main_v10_apply x6 (ix2 R j)).trans ((val_main_v9_apply x6 _).trans
    (congrArg x6 (funext fun a => by match a with | ⟨0, _⟩ => rfl)))
theorem bias25_at (j : Fin 32) : val_main_v25 (F := Ideal) x8 (ix2 R j) = x8 (ix1 j) :=
  (val_main_v25_apply x8 (ix2 R j)).trans ((val_main_v24_apply x8 _).trans
    (congrArg x8 (funext fun a => by match a with | ⟨0, _⟩ => rfl)))
theorem bias31_at (j : Fin 32) : val_main_v31 (F := Ideal) x10 (ix2 R j) = x10 (ix1 j) :=
  (val_main_v31_apply x10 (ix2 R j)).trans ((val_main_v30_apply x10 _).trans
    (congrArg x10 (funext fun a => by match a with | ⟨0, _⟩ => rfl)))
theorem bias38_at : val_main_v38 (F := Ideal) x12 (ix2 R (0 : Fin 1)) = x12 (ix1 (0 : Fin 1)) :=
  (val_main_v38_apply x12 (ix2 R (0 : Fin 1))).trans ((val_main_v37_apply x12 _).trans
    (congrArg x12 (funext fun a => by match a with | ⟨0, _⟩ => rfl)))

/-- The first feature transform at (R, j). -/
theorem featW_at (j : Fin 32) : val_main_v5 (F := Ideal) x1 x2 x3 x4 (ix2 R j)
    = featW (fun k => x1 (ix2 R k)) (fun k => x2 (ix2 R k)) (fun j k => x3 (ix2 j k)) (fun j => x4 (ix1 j)) j := by
  unfold val_main_v5 val_main_v2 val_main_v0 val_main_v1 featW affine
  refine congrArg₂ (· + ·) ?_ (bias4_at x4 R j)
  refine (dotGeneral_plain dot_S1048576x98_S98x32_S1048576x32_1_0_0_1_n_n_wf none .single _ _ R j).trans ?_
  refine Finset.sum_congr rfl fun k _ => congrArg₂ (· * ·) ?_ (transpose_ix2_apply x3 transposes_S32x98_S98x32_1_0 k j)
  exact concat_cols_apply rfl x1 x2 concatenates_S1048576x49_S1048576x49_S1048576x98_d1 R k

/-- The second feature transform at (R, j): the two vectors in the other order. -/
theorem featB_at (j : Fin 32) : val_main_v11 (F := Ideal) x1 x2 x5 x6 (ix2 R j)
    = featB (fun k => x1 (ix2 R k)) (fun k => x2 (ix2 R k)) (fun j k => x5 (ix2 j k)) (fun j => x6 (ix1 j)) j := by
  unfold val_main_v11 val_main_v8 val_main_v6 val_main_v7 featB affine
  refine congrArg₂ (· + ·) ?_ (bias10_at x6 R j)
  refine (dotGeneral_plain dot_S1048576x98_S98x32_S1048576x32_1_0_0_1_n_n_wf none .single _ _ R j).trans ?_
  refine Finset.sum_congr rfl fun k _ => congrArg₂ (· * ·) ?_ (transpose_ix2_apply x5 transposes_S32x98_S98x32_1_0 k j)
  exact concat_cols_apply rfl x2 x1 concatenates_S1048576x49_S1048576x49_S1048576x98_d1 R k

/-- Row R's mixed features, from the arguments. -/
def rowBase : Fin 64 → EReal :=
  base (x0 (ix2 R (0 : Fin 1)))
    (featW (fun k => x1 (ix2 R k)) (fun k => x2 (ix2 R k)) (fun j k => x3 (ix2 j k)) (fun j => x4 (ix1 j)))
    (featB (fun k => x1 (ix2 R k)) (fun k => x2 (ix2 R k)) (fun j k => x5 (ix2 j k)) (fun j => x6 (ix1 j)))

/-- The mixed, rectified features at (R, k). -/
theorem base_at (k : Fin 64) : val_main_v21 (F := Ideal) x0 x1 x2 x3 x4 x5 x6 (ix2 R k) = rowBase x0 x1 x2 x3 x4 x5 x6 R k := by
  unfold val_main_v21 val_main_v20 val_main_v15 val_main_v19 val_main_v12 val_main_v13 rowBase base
  refine congrArg₂ max (congrArg₂ (· + ·) (congrArg₂ (· * ·) ?_ ?_) (congrArg₂ (· * ·) ?_ ?_)) ?_
  · exact (val_main_v14_apply x0 _).trans
      (congrArg x0 (funext fun a => by match a with | ⟨0, _⟩ => rfl | ⟨1, _⟩ => rfl))
  · refine (concat_cols_apply rfl _ _ concatenates_S1048576x32_S1048576x32_S1048576x64_d1 R k).trans ?_
    unfold join32
    by_cases hk : k.val < 32
    · rw [dif_pos hk, dif_pos hk]; exact featW_at x1 x2 x3 x4 R ⟨k.val, hk⟩
    · rw [dif_neg hk, dif_neg hk]; exact featB_at x1 x2 x5 x6 R ⟨k.val - 32, by have := k.isLt; omega⟩
  · refine (val_main_v18_apply x0 _).trans ((val_main_v17_apply x0 _).trans (congrArg₂ (· - ·) ?_
      (congrArg x0 (funext fun a => by match a with | ⟨0, _⟩ => rfl | ⟨1, _⟩ => rfl))))
    exact (val_main_v16_apply _).trans rfl
  · refine (concat_cols_apply rfl _ _ concatenates_S1048576x32_S1048576x32_S1048576x64_d1 R k).trans ?_
    unfold join32
    by_cases hk : k.val < 32
    · rw [dif_pos hk, dif_pos hk]; exact featB_at x1 x2 x5 x6 R ⟨k.val, hk⟩
    · rw [dif_neg hk, dif_neg hk]; exact featW_at x1 x2 x3 x4 R ⟨k.val - 32, by have := k.isLt; omega⟩
  · exact (val_main_call0_v0_apply _).trans rfl

/-- The first hidden layer at (R, j). -/
theorem hid0_at (j : Fin 32) : val_main_v27 (F := Ideal) x0 x1 x2 x3 x4 x5 x6 x7 x8 (ix2 R j)
    = layer (fun j k => x7 (ix2 j k)) (fun j => x8 (ix1 j)) (rowBase x0 x1 x2 x3 x4 x5 x6 R) j := by
  unfold val_main_v27 val_main_v26 val_main_v23 val_main_v22 layer affine
  refine congrArg₂ max (congrArg₂ (· + ·) ?_ (bias25_at x8 R j)) ((val_main_call1_v0_apply _).trans rfl)
  refine (dotGeneral_plain dot_S1048576x64_S64x32_S1048576x32_1_0_0_1_n_n_wf none .single _ _ R j).trans ?_
  exact Finset.sum_congr rfl fun k _ => congrArg₂ (· * ·) (base_at x0 x1 x2 x3 x4 x5 x6 R k)
    (transpose_ix2_apply x7 transposes_S32x64_S64x32_1_0 k j)

/-- The second hidden layer at (R, j). -/
theorem hid1_at (j : Fin 32) : val_main_v33 (F := Ideal) x0 x1 x2 x3 x4 x5 x6 x7 x8 x9 x10 (ix2 R j)
    = layer (fun j k => x9 (ix2 j k)) (fun j => x10 (ix1 j))
        (layer (fun j k => x7 (ix2 j k)) (fun j => x8 (ix1 j)) (rowBase x0 x1 x2 x3 x4 x5 x6 R)) j := by
  unfold val_main_v33 val_main_v32 val_main_v29 val_main_v28
  unfold layer affine
  refine congrArg₂ max (congrArg₂ (· + ·) ?_ (bias31_at x10 R j)) ((val_main_call2_v0_apply _).trans rfl)
  refine (dotGeneral_plain dot_S1048576x32_S32x32_S1048576x32_1_0_0_1_n_n_wf none .single _ _ R j).trans ?_
  refine Finset.sum_congr rfl fun k _ => congrArg₂ (· * ·) ?_ (transpose_ix2_apply x9 transposes_S32x32_S32x32_1_0 k j)
  exact (hid0_at x0 x1 x2 x3 x4 x5 x6 x7 x8 R k).trans (by unfold layer affine; rfl)

/-- The reference's result at row R. -/
theorem out_at : val_main_v39 (F := Ideal) x0 x1 x2 x3 x4 x5 x6 x7 x8 x9 x10 x11 x12 (ix2 R (0 : Fin 1))
    = rowOut (x0 (ix2 R (0 : Fin 1))) (fun k => x1 (ix2 R k)) (fun k => x2 (ix2 R k))
        (fun j k => x3 (ix2 j k)) (fun j => x4 (ix1 j)) (fun j k => x5 (ix2 j k)) (fun j => x6 (ix1 j))
        (fun j k => x7 (ix2 j k)) (fun j => x8 (ix1 j)) (fun j k => x9 (ix2 j k)) (fun j => x10 (ix1 j))
        (fun k => x11 (ix2 (0 : Fin 1) k)) (x12 (ix1 (0 : Fin 1))) := by
  unfold val_main_v39 val_main_v36 val_main_v34 val_main_v35 rowOut head
  refine congrArg₂ (· + ·) ?_ (bias38_at x12 R)
  refine (dotGeneral_plain dot_S1048576x64_S64x1_S1048576x1_1_0_0_1_n_n_wf none .single _ _ R (0 : Fin 1)).trans ?_
  refine Finset.sum_congr rfl fun k _ => congrArg₂ (· * ·) ?_ (transpose_ix2_apply x11 transposes_S1x64_S64x1_1_0 k (0 : Fin 1))
  refine (concat_cols_apply rfl _ _ concatenates_S1048576x32_S1048576x32_S1048576x64_d1 R k).trans ?_
  unfold join32
  by_cases hk : k.val < 32
  · rw [dif_pos hk, dif_pos hk]; exact hid0_at x0 x1 x2 x3 x4 x5 x6 x7 x8 R ⟨k.val, hk⟩
  · rw [dif_neg hk, dif_neg hk]
    exact hid1_at x0 x1 x2 x3 x4 x5 x6 x7 x8 x9 x10 R ⟨k.val - 32, by have := k.isLt; omega⟩

/-- The reference's result array is the network's result of the arguments. -/
theorem ref_eq : val_main_v39 (F := Ideal) x0 x1 x2 x3 x4 x5 x6 x7 x8 x9 x10 x11 x12
    = result x0 x1 x2 x3 x4 x5 x6 x7 x8 x9 x10 x11 x12 := by
  funext i
  obtain ⟨R, u, rfl⟩ : ∃ (R : Fin 1048576) (u : Fin 1), i = ix2 R u := ⟨i 0, i 1, eq_ix2 i⟩
  obtain rfl : u = 0 := Fin.ext (by omega)
  exact out_at x0 x1 x2 x3 x4 x5 x6 x7 x8 x9 x10 x11 x12 R

end Cert.ReferenceIdeal.RowValue

end
-- ==== Proof.lean ====
/-
  A five-layer network on 1,048,576 independent rows: a tiled kernel against its whole-array reference, equal on the
  extended reals.

  Each row carries a scalar p and two 49-vectors w, b.  Both programs compute, per row,
      fw = Ww · (w ‖ b) + bw,   fb = Wb · (b ‖ w) + bb,
      base = max (p · (fw ‖ fb) + (1 − p) · (fb ‖ fw), 0),
      x = max (W0 · base + b0, 0),   x' = max (W1 · x + b1, 0),   out = W2 · (x ‖ x') + b2
  (`Cert.Net.rowOut`; `‖` lays two vectors end to end).  The kernel does it on 256 blocks of 4096 rows with the
  weights transposed beforehand and rounded to a narrower float format on the way into each matrix product; the
  reference does it on whole arrays with transposes and broadcasts.  On the extended reals a change of float format is
  the identity, and a matrix product — on the matrix unit into a zero accumulator, or the host's — is the plain sum
  over the contracted coordinate, so the two programs are the same sums of the same products in the same order of
  layers: no law beyond re-indexing is used, and the finiteness precondition is never opened.

  * the reference's result array is `Cert.Net.result` of the arguments  (Proof/RefRows.lean, over the generated
    read-at-an-index lemmas);
  * the kernel body's stored column, read at a row, is `rowOut` of that row's loads  (Proof/KernelRows.lean);
  * block t of the output is block t of `Cert.Net.result`, and the blocks cover the array  (Proof/ArrayValue.lean, over
    the generated blockwise value leg);
  * the three frames are the generated ones (the reference's is its generated run with the result dropped), and the
    idealized kernel is the kernel's own text read on the extended reals: nothing was rewritten, so `preserves` is `True`.
-/
import proofs.«170272_j32014686224968_1_alg».proof.Defs
import proofs.«170272_j32014686224968_1_alg».proof.Proof.Gen.Kernel
import proofs.«170272_j32014686224968_1_alg».proof.Proof.Gen.Kernel.Skeleton
import proofs.«170272_j32014686224968_1_alg».proof.Proof.Gen.Kernel.Launch
import proofs.«170272_j32014686224968_1_alg».proof.Proof.Gen.Kernel.Points
import proofs.«170272_j32014686224968_1_alg».proof.Proof.Gen.Kernel.Frame
import proofs.«170272_j32014686224968_1_alg».proof.Proof.Gen.KernelIdeal
import proofs.«170272_j32014686224968_1_alg».proof.Proof.Gen.KernelIdeal.Skeleton
import proofs.«170272_j32014686224968_1_alg».proof.Proof.Gen.KernelIdeal.Launch
import proofs.«170272_j32014686224968_1_alg».proof.Proof.Gen.KernelIdeal.Points
import proofs.«170272_j32014686224968_1_alg».proof.Proof.Gen.KernelIdeal.Frame
import proofs.«170272_j32014686224968_1_alg».proof.Proof.Gen.ReferenceIdeal
import proofs.«170272_j32014686224968_1_alg».proof.Proof.Gen.Pre_finite_inputs
import proofs.«170272_j32014686224968_1_alg».proof.Proof.Gen.KernelIdeal.Value
import proofs.«170272_j32014686224968_1_alg».proof.Proof.Gen.ReferenceIdeal.Run
import proofs.«170272_j32014686224968_1_alg».proof.Proof.Gen.ReferenceIdeal.Read
import proofs.«170272_j32014686224968_1_alg».proof.Proof.ArrayValue
import proofs.«170272_j32014686224968_1_alg».proof.Proof.RefRows
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the thirteen arguments, both programs end with the result array at the network's
    result of those arguments. -/
theorem algebraic : Cert.algebraic_KernelIdeal_ReferenceIdeal := by
  intro m ρ m' ρ' _ hagree
  refine ⟨fun c => Cert.KernelIdeal.ArrayValue.netResult m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RowValue.ref_eq]
  obtain ⟨h0, h1, h2, h3, h4, h5, h6, h7, h8, h9, h10, h11, h12⟩ := hagree c
  rw [h0, h1, h2, h3, h4, h5, h6, h7, h8, h9, h10, h11, h12]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
